-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S512x512 32) (main_arg1 : FVec F S1 .f32) : IVec S_ 1 :=
  let main_v0 : FVec F S1 .f32 := Host.absf main_arg1
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  main_v3
-- ==== Kernel.lean ====
abbrev S512x512 : Shape := ⟨2, ![512, 512]⟩
abbrev S1 : Shape := ⟨1, ![1]⟩
abbrev S512 : Shape := ⟨1, ![512]⟩
abbrev S512x1 : Shape := ⟨2, ![512, 1]⟩
abbrev S_ : Shape := ⟨0, ![]⟩
abbrev S512x50265 : Shape := ⟨2, ![512, 50265]⟩
abbrev S512x512x1 : Shape := ⟨3, ![512, 512, 1]⟩
abbrev S512x512x2 : Shape := ⟨3, ![512, 512, 2]⟩
abbrev S512x51200 : Shape := ⟨2, ![512, 51200]⟩
abbrev S512x2048 : Shape := ⟨2, ![512, 2048]⟩

abbrev nBuf : Space → Nat
  | .hbm => 53
  | .vmem => 8
  | .smem => 0
  | _ => 0

abbrev bufTy : (tb : Table) → Fin (tcTables nBuf tb) → BufTy
  | .hbm, ⟨0, _⟩ => ⟨S512x512, .i32⟩
  | .hbm, ⟨1, _⟩ => ⟨S1, .f32⟩
  | .hbm, ⟨2, _⟩ => ⟨S512, .i32⟩
  | .hbm, ⟨3, _⟩ => ⟨S512x1, .i32⟩
  | .hbm, ⟨4, _⟩ => ⟨S_, .f32⟩
  | .hbm, ⟨5, _⟩ => ⟨S512x50265, .f32⟩
  | .hbm, ⟨6, _⟩ => ⟨S_, .i32⟩
  | .hbm, ⟨7, _⟩ => ⟨S512x1, .i32⟩
  | .hbm, ⟨8, _⟩ => ⟨S512x1, .i1⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x512, .i32⟩
  | .hbm, ⟨15, _⟩ => ⟨S512x512, .i1⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S512x512x1, .i32⟩
  | .hbm, ⟨22, _⟩ => ⟨S512x512x1, .i32⟩
  | .hbm, ⟨23, _⟩ => ⟨S512x512x2, .i32⟩
  | .hbm, ⟨24, _⟩ => ⟨S_, .f32⟩
  | .hbm, ⟨25, _⟩ => ⟨S512x512, .f32⟩
  | .hbm, ⟨26, _⟩ => ⟨S512x50265, .f32⟩
  | .hbm, ⟨27, _⟩ => ⟨S_, .i32⟩
  | .hbm, ⟨28, _⟩ => ⟨S1, .i32⟩
  | .hbm, ⟨29, _⟩ => ⟨S_, .f32⟩
  | .hbm, ⟨30, _⟩ => ⟨S512, .f32⟩
  | .hbm, ⟨31, _⟩ => ⟨S512x50265, .f32⟩
  | .hbm, ⟨32, _⟩ => ⟨S_, .i32⟩
  | .hbm, ⟨33, _⟩ => ⟨S_, .f32⟩
  | .hbm, ⟨34, _⟩ => ⟨S512x51200, .f32⟩
  | .hbm, ⟨35, _⟩ => ⟨S512x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S512x51200, .f32⟩
  | .hbm, ⟨52, _⟩ => ⟨S512x50265, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x2048, .f32⟩
  | .local _ .vmem, ⟨4, _⟩ => ⟨S512x2048, .f32⟩
  | .local _ .vmem, ⟨5, _⟩ => ⟨S512x1, .f32⟩
  | .local _ .vmem, ⟨6, _⟩ => ⟨S512x2048, .f32⟩
  | .local _ .vmem, ⟨7, _⟩ => ⟨S512x2048, .f32⟩
  | _, _ => ⟨S512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S512_S512x1_0 : S512.BroadcastsInDim S512x1 (![0] : Fin 1 → Fin S512x1.rank)
  bcast_S_S512x50265 : S_.BroadcastsInDim S512x50265 (![] : Fin 0 → Fin S512x50265.rank)
  bcast_S_S512x1 : S_.BroadcastsInDim S512x1 (![] : Fin 0 → Fin S512x1.rank)
  bcast_S_S512x512 : S_.BroadcastsInDim S512x512 (![] : Fin 0 → Fin S512x512.rank)
  bcast_S512x1_S512x512_0_1 : S512x1.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S_S1 : S_.BroadcastsInDim S1 (![] : Fin 0 → Fin S1.rank)
  bcast_S_S512 : S_.BroadcastsInDim S512 (![] : Fin 0 → Fin S512.rank)
  pads_S512x50265_S512x51200_000_09350 : S512x50265.Pads (![0, 0] : Fin 2 → Nat) ![0, 935] ![0, 0] S512x51200
  h_S_ : 0 < S_.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  reducesTo_S512x1_S_d0_1 : S512x1.ReducesTo [0, 1] S_
  broadcasts_S512x1_S512x2048 : S512x1.Broadcasts S512x2048
  slices_S512x51200_S512x50265_0_0 : S512x51200.Slices ![0, 0] S512x50265
  scatter_S512x50265_S512x512x2_S512x512_n_01_01_2_wf : ScatterDims.WF S512x50265 S512x512x2 S512x512 [] [0, 1] [0, 1] 2
  scatter_S512x50265_S1_S512_0_1_1_0_wf : ScatterDims.WF S512x50265 S1 S512 [0] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x51200.size a
  hwx0_0 : ∀ i : grid0.Coords, EltTy.bits .f32 = 32 ∨ (Rect.block (s := S512x51200) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S512x51200.size a
  hwx1_0 : ∀ i : grid1.Coords, EltTy.bits .f32 = 32 ∨ (Rect.block (s := S512x51200) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S512x51200.size a
  hwx1_2 : ∀ i : grid1.Coords, EltTy.bits .f32 = 32 ∨ (Rect.block (s := S512x51200) S512x2048.size (cc1_transform_2 i) (hinb1_2 i)).WholeWords (EltTy.packing .f32)

variable [Facts₀]

def scatter_S512x50265_S512x512x2_S512x512_n_01_01_2 : ScatterDims S512x50265 S512x512x2 S512x512 where
  updateWindowDims := []
  insertedWindowDims := [0, 1]
  scatterDimsToOperandDims := [0, 1]
  indexVectorDim := 2
  wf := scatter_S512x50265_S512x512x2_S512x512_n_01_01_2_wf
def scatter_S512x50265_S1_S512_0_1_1_0 : ScatterDims S512x50265 S1 S512 where
  updateWindowDims := [0]
  insertedWindowDims := [1]
  scatterDimsToOperandDims := [1]
  indexVectorDim := 0
  wf := scatter_S512x50265_S1_S512_0_1_1_0_wf

abbrev win0_0 : Pipeline.Window sig grid0 :=
  Pipeline.Window.ofSpec (Memref.whole main_v22) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S512x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v22) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x512 : Shape := ⟨2, ![512, 512]⟩
abbrev S1 : Shape := ⟨1, ![1]⟩
abbrev S512 : Shape := ⟨1, ![512]⟩
abbrev S512x1 : Shape := ⟨2, ![512, 1]⟩
abbrev S_ : Shape := ⟨0, ![]⟩
abbrev S512x50265 : Shape := ⟨2, ![512, 50265]⟩
abbrev S512x512x1 : Shape := ⟨3, ![512, 512, 1]⟩
abbrev S512x512x2 : Shape := ⟨3, ![512, 512, 2]⟩

abbrev nBuf : Space → Nat
  | .hbm => 56
  | .vmem => 0
  | .smem => 0
  | _ => 0

abbrev bufTy : (tb : Table) → Fin (tcTables nBuf tb) → BufTy
  | .hbm, ⟨0, _⟩ => ⟨S512x512, .i32⟩
  | .hbm, ⟨1, _⟩ => ⟨S1, .f32⟩
  | .hbm, ⟨2, _⟩ => ⟨S512, .i32⟩
  | .hbm, ⟨3, _⟩ => ⟨S512x1, .i32⟩
  | .hbm, ⟨4, _⟩ => ⟨S_, .f32⟩
  | .hbm, ⟨5, _⟩ => ⟨S512x50265, .f32⟩
  | .hbm, ⟨6, _⟩ => ⟨S_, .i32⟩
  | .hbm, ⟨7, _⟩ => ⟨S512x1, .i32⟩
  | .hbm, ⟨8, _⟩ => ⟨S512x1, .i1⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x512, .i32⟩
  | .hbm, ⟨15, _⟩ => ⟨S512x512, .i1⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S512x512x1, .i32⟩
  | .hbm, ⟨22, _⟩ => ⟨S512x512x1, .i32⟩
  | .hbm, ⟨23, _⟩ => ⟨S512x512x2, .i32⟩
  | .hbm, ⟨24, _⟩ => ⟨S_, .f32⟩
  | .hbm, ⟨25, _⟩ => ⟨S512x512, .f32⟩
  | .hbm, ⟨26, _⟩ => ⟨S512x50265, .f32⟩
  | .hbm, ⟨27, _⟩ => ⟨S_, .i32⟩
  | .hbm, ⟨28, _⟩ => ⟨S1, .i32⟩
  | .hbm, ⟨29, _⟩ => ⟨S_, .f32⟩
  | .hbm, ⟨30, _⟩ => ⟨S512, .f32⟩
  | .hbm, ⟨31, _⟩ => ⟨S512x50265, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512x1, .f32⟩
  | .hbm, ⟨50, _⟩ => ⟨S512x50265, .f32⟩
  | .hbm, ⟨51, _⟩ => ⟨S512x50265, .f32⟩
  | .hbm, ⟨52, _⟩ => ⟨S_, .f32⟩
  | .hbm, ⟨53, _⟩ => ⟨S512x50265, .f32⟩
  | .hbm, ⟨54, _⟩ => ⟨S512x50265, .f32⟩
  | .hbm, ⟨55, _⟩ => ⟨S512x50265, .f32⟩
  | _, _ => ⟨S512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S_S512x50265 : S_.BroadcastsInDim S512x50265 (![] : Fin 0 → Fin S512x50265.rank)
  bcast_S_S512x1 : S_.BroadcastsInDim S512x1 (![] : Fin 0 → Fin S512x1.rank)
  bcast_S_S512x512 : S_.BroadcastsInDim S512x512 (![] : Fin 0 → Fin S512x512.rank)
  bcast_S512x1_S512x512_0_1 : S512x1.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S_S1 : S_.BroadcastsInDim S1 (![] : Fin 0 → Fin S1.rank)
  bcast_S_S512 : S_.BroadcastsInDim S512 (![] : Fin 0 → Fin S512.rank)
  reducesTo_S512x50265_S512_d1 : S512x50265.ReducesTo [1] S512
  h_S_ : 0 < S_.numel
  reducesTo_S512_S_d0 : S512.ReducesTo [0] S_
  bcast_S512x1_S512x50265_0_1 : S512x1.BroadcastsInDim S512x50265 (![0, 1] : Fin 2 → Fin S512x50265.rank)
  scatter_S512x50265_S512x512x2_S512x512_n_01_01_2_wf : ScatterDims.WF S512x50265 S512x512x2 S512x512 [] [0, 1] [0, 1] 2
  scatter_S512x50265_S1_S512_0_1_1_0_wf : ScatterDims.WF S512x50265 S1 S512 [0] [1] [1] 0

variable [Facts₀]

def scatter_S512x50265_S512x512x2_S512x512_n_01_01_2 : ScatterDims S512x50265 S512x512x2 S512x512 where
  updateWindowDims := []
  insertedWindowDims := [0, 1]
  scatterDimsToOperandDims := [0, 1]
  indexVectorDim := 2
  wf := scatter_S512x50265_S512x512x2_S512x512_n_01_01_2_wf
def scatter_S512x50265_S1_S512_0_1_1_0 : ScatterDims S512x50265 S1 S512 where
  updateWindowDims := [0]
  insertedWindowDims := [1]
  scatterDimsToOperandDims := [1]
  indexVectorDim := 0
  wf := scatter_S512x50265_S1_S512_0_1_1_0_wf

class Facts : Prop extends Facts₀ where

variable [Facts]
-- ==== Proof.KernelRun.lean ====
/-
  The idealized kernel's whole run, with its result named.

  The program is six segments: the host operations that build the count matrix and pad it, the row-sum region,
  the host operations that turn the row sums into the per-row additive term, the normalising region, and the final
  slice. The generated frame walks these segments and records the contents of every buffer at every boundary
  (`Gen.W0` … `Gen.W6`); its statement keeps only the argument arrays. Read against the final state at the result
  buffer as well, the same walk says that the result ends holding the last boundary's contents there, `Gen.W6`.
-/
import proofs.«109976_j1185410973873_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    last segment boundary records for it, and the two argument arrays end as launched. -/
theorem run : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c)⟩)

end Cert.KernelIdeal.RunValue

end
-- ==== Proof.Spec.lean ====
/-
  Sums of extended reals taken tile by tile.

  A row of the padded count matrix has 51200 entries: the 50265 counts of the row, then 935 zeros. The row-sum region
  visits it in 25 tiles of 2048 entries; it starts from `0 + (the first tile's sum)` and then adds one tile's sum per
  grid point. Addition of extended reals is commutative and associative, and adding `0` changes nothing, so the value
  left after the last point is the plain sum of the row's 50265 counts — no finiteness is needed anywhere.
-/
import Idealize.ShloMosaic.PureOps.Ideal
import Idealize.ShloMosaic.Lib.ValueIdx

noncomputable section

namespace Cert.Bm25

open Idealize.ShloMosaic

/-- The running value after grid point `n`: `0 + S 0` after the first point, then one more term per point. -/
def runSum (S : ℕ → EReal) : ℕ → EReal
  | 0 => 0 + S 0
  | n + 1 => runSum S n + S (n + 1)

/-- The running value after point `n` is the sum of the first `n + 1` terms. -/
theorem runSum_eq (S : ℕ → EReal) (n : ℕ) : runSum S n = ∑ t ∈ Finset.range (n + 1), S t := by
  induction n with
  | zero => simp [runSum]
  | succ n ih => rw [runSum, ih, Finset.sum_range_succ _ (n + 1)]

/-- A sum over `B` consecutive tiles of width `W`, tile by tile, is the sum over the first `B * W` positions. -/
theorem sum_tiles (g : ℕ → EReal) (W : ℕ) (B : ℕ) :
    ∑ t ∈ Finset.range B, ∑ j : Fin W, g (t * W + j.val) = ∑ k ∈ Finset.range (B * W), g k := by
  induction B with
  | zero => simp
  | succ B ih =>
    rw [Finset.sum_range_succ, ih, Nat.succ_mul, Finset.sum_range_add,
      Fin.sum_univ_eq_sum_range (fun x => g (B * W + x)) W]

/-- Positions past `n` that hold `0` add nothing. -/
theorem sum_padded (g : ℕ → EReal) (n N : ℕ) (hn : n ≤ N) (hz : ∀ k, n ≤ k → g k = 0) :
    ∑ k ∈ Finset.range N, g k = ∑ k ∈ Finset.range n, g k :=
  (Finset.sum_subset (Finset.range_mono hn) fun k _ hk => hz k (by simpa using hk)).symm

/-- The value the row-sum region leaves after its 25th point, for a row `g` that is zero from position 50265 on:
    the sum of the row's first 50265 entries. -/
theorem runSum_tiles (g : ℕ → EReal) (hz : ∀ k, 50265 ≤ k → g k = 0) :
    runSum (fun t => ∑ j : Fin 2048, g (t * 2048 + j.val)) 24 = ∑ k : Fin 50265, g k.val := by
  rw [runSum_eq, sum_tiles g 2048 25, sum_padded g 50265 (25 * 2048) (by norm_num) hz,
    Fin.sum_univ_eq_sum_range]

/-! ## The common value of the two programs -/

/-- The five float constants of the formula, each at the exact value of its binary word: 2.6, 1.6, 0.25, 0.75 (as f32)
    and 512. Both programs carry the same words, so none is ever evaluated. -/
abbrev c26 : EReal := Ideal.ofBits .f32 0x40266666#32
abbrev c16 : EReal := Ideal.ofBits .f32 0x3FCCCCCD#32
abbrev c025 : EReal := Ideal.ofBits .f32 0x3E800000#32
abbrev c075 : EReal := Ideal.ofBits .f32 0x3F400000#32
abbrev c512 : EReal := Ideal.ofBits .f32 0x44000000#32

/-- The BM25 weight of entry (r, k) of a count matrix `C`: with `len r` the sum of row `r` and `avg` the sum of all row
    sums over 512, it is `(C r k · 2.6) / (C r k + 1.6 · (0.25 + 0.75 · (len r / avg)))` on the extended reals. -/
def bm25 (C : Fin 512 → Fin 50265 → EReal) (r : Fin 512) (k : Fin 50265) : EReal :=
  Ideal.div (C r k * c26)
    (C r k + c16 * (c025 + c075 * Ideal.div (∑ k', C r k') (Ideal.div (∑ r', ∑ k', C r' k') c512)))

end Cert.Bm25

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.RowSums.lean ====
/-
  The row-sum region: what it leaves in the column of row sums.

  The region walks the 25 column tiles of the padded count matrix. Its output block is the whole [512, 1] column and
  never moves, so it is written back once, after the last point. At the first point the body stores zeros, reads them
  back, and stores `zeros + (row sums of tile 0)`; at every later point it stores `(what the point before left) + (row sums
  of the tile)`. So the column ends at the running sum of the 25 tiles' row sums, and at the ideal values that is, row by
  row, `runSum` of the tile sums (Spec).
-/
import proofs.«109976_j1185410973873_1_alg».proof.Proof.Gen.KernelIdeal.Frame
import proofs.«109976_j1185410973873_1_alg».proof.Proof.Spec
import proofs.«109976_j1185410973873_1_alg».proof.Proof.LibColumnCast
import Idealize.ShloMosaic.Lib.Pipeline.Value
import Idealize.ShloMosaic.PureOps.Ideal.Laws
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.RowSums

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- At a point that is not the first, the body leaves `(previous contents) + (row sums of the tile)`: its one store covers
    the block, and its two loads read the whole buffers. -/
theorem out_B (c : Dev nD) (i : grid0.Coords) (a1 : Memref sig .tc .vmem S512x2048 .f32) (h1 : a1.IsWhole)
    (a2 : Memref sig .tc .vmem S512x1 .f32) (h2 : a2.IsWhole) (hc : ¬cond0_0 i) (x : Vec F S512x2048 .f32) (xo : Vec F S512x1 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  sl_unfold_words
  rw [View.canon_unit_zero hz]
  simp only [View.readAt_eq_ld, h1.read_unread, h2.read_unread, View.ld_unit_zero (S := S512x1) hz,
    View.ld_unit_zero (S := S512x2048) hz]

/-- At the first point the body stores the zero column, reads it back, and leaves `zeros + (row sums of the tile)`. -/
theorem out_A (c : Dev nD) (i : grid0.Coords) (a1 : Memref sig .tc .vmem S512x2048 .f32) (h1 : a1.IsWhole)
    (a2 : Memref sig .tc .vmem S512x1 .f32) (h2 : a2.IsWhole) (hc : cond0_0 i) (x : Vec F S512x2048 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S512x1) hz, View.readCov_unit_zero (S := S512x1) _ hz]
  simp only [View.readAt_eq_ld, h1.read_unread, View.ld_unit_zero (S := S512x2048) hz]

section Region
variable (V : (c : Dev nD) → (b : Ref sig .tc) → Buf (Elt F) ((c : Thread nD τ).loc b))

/-- The column after point `n`: from the zero column at the first point, one tile's row sums added per point. -/
def acc (c : Dev nD) : (n : ℕ) → n < cfg0.N → Vec F S512x1 .f32
  | 0, h => k0_pay2 (k0_pay1 (F := F)) (iblk0 V c 0 ⟨0, h⟩)
  | n + 1, h => k0_pay2 (acc c n (Nat.lt_of_succ_lt h)) (iblk0 V c 0 ⟨n + 1, h⟩)

/-- What the output's staging buffer holds after point `n` is that column: by induction on the point. -/
theorem outsAt_eq (c : Dev nD) : ∀ (n : ℕ) (h : n < cfg0.N), outsAt0 V c n h = acc V c n h
  | 0, h => (outsAt0_A V c ⟨0, h⟩ rfl).trans (out_A ..)
  | n + 1, h => by
    have hN : cfg0.N = 25 := N_0
    have hB : ¬(⟨n + 1, h⟩ : Fin cfg0.N).val % 25 = 0 := by dsimp only; omega
    rw [outsAt0_B V c ⟨n + 1, h⟩ hB, out_B]
    show k0_pay2 (outsAt0 V c n _) _ = k0_pay2 (acc V c n _) _
    rw [outsAt_eq c n]

/-- The block indices of the two windows, decided over the grid: the input's tile `t` is column block `t`; the output's
    block is always block (0, 0). -/
theorem idx_in : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_out : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem lt25 (t : Fin cfg0.N) : t.val < 25 := lt_of_lt_of_eq t.isLt N_0

/-- Entry (r, j) of tile `t` is entry (r, 2048 t + j) of the padded matrix as the region finds it. -/
theorem tile_apply (c : Dev nD) (t : Fin cfg0.N) (r : Fin 512) (j : Fin 2048) :
    (iblk0 V c 0 t : Vec F S512x2048 .f32) (ix2 r j)
      = (V c main_v22 : S512x51200.Idx → Elt F .f32) (ix2 r ⟨t.val * 2048 + j.val, by have := lt25 t; have := j.isLt; omega⟩) := by
  unfold iblk0
  rw [View.read_apply]
  show V c main_v22 _ = V c main_v22 _
  congr 1
  funext a
  apply Fin.ext
  obtain ⟨e0, e1⟩ := idx_in t
  match a with
  | ⟨0, _⟩ => show win0_0.index t (0 : Fin 2) * 512 + 1 * r.val = r.val; rw [e0]; omega
  | ⟨1, _⟩ => show win0_0.index t (1 : Fin 2) * 2048 + 1 * j.val = t.val * 2048 + j.val; rw [e1]; omega

/-- The grid has a 25th point, -/
theorem lt24 : 24 < cfg0.N := by rw [show cfg0.N = 25 from N_0]; decide
/-- the last one. -/
def last : Fin cfg0.N := ⟨24, lt24⟩

/-- The one write-back, after the last point, writes the column after point 24: the block is the whole array. -/
theorem flushed_eq (c : Dev nD) (t : Fin cfg0.N) (hf : (cfg0.win 1).flush t = true) :
    (dat0 V c).flushed 1 t = ((cfg0.win 1).blk t).view.read (Elt F) (acc V c 24 lt24) := by
  have h24 : t.val = 24 := by have := (flush0_1 t).mp hf; have := lt25 t; omega
  obtain ⟨n, hn⟩ := t
  obtain rfl : n = 24 := h24
  show (cfg0.win 1).cut (grid0.coords ⟨24, hn⟩) ((dat0 V c).after 1 ⟨24, hn⟩) = _
  rw [after0_1, outsAt_eq]
  obtain ⟨e0, e1⟩ := idx_out ⟨24, hn⟩
  funext j
  show acc V c 24 _ j = acc V c 24 _ (((cfg0.win 1).blk ⟨24, hn⟩).view.emb j)
  congr 1
  funext a
  apply Fin.ext
  match a with
  | ⟨0, _⟩ => show (j 0).val = win0_1.index ⟨24, hn⟩ (0 : Fin 2) * 512 + 1 * (j 0).val; rw [e0]; omega
  | ⟨1, _⟩ => show (j 1).val = win0_1.index ⟨24, hn⟩ (1 : Fin 2) * 1 + 1 * (j 1).val; rw [e1]; omega

/-- So the column of row sums ends at the column after point 24. -/
theorem final_col (c : Dev nD) : (dat0 V c).arrAt 1 cfg0.N = acc V c 24 lt24 :=
  (dat0 V c).arrAt_eq_of_cover 1 (acc V c 24 lt24) (flushed_eq V c) fun i =>
    ⟨last, (flush0_1 last).mpr rfl, by
      show i ∈ ((View.whole main_v23).slice (win0_1.rect last)).set
      rw [View.set_slice_whole, Rect.mem_set_unit]
      obtain ⟨e0, e1⟩ := idx_out last
      intro a
      have h0 : (i 0 : Nat) < 512 := (i 0).isLt
      have h1 : (i 1 : Nat) < 1 := (i 1).isLt
      match a with
      | ⟨0, _⟩ => show win0_1.index last (0 : Fin 2) * 512 ≤ (i 0 : Nat) ∧ (i 0 : Nat) < win0_1.index last (0 : Fin 2) * 512 + 512
                  rw [e0]; omega
      | ⟨1, _⟩ => show win0_1.index last (1 : Fin 2) * 1 ≤ (i 1 : Nat) ∧ (i 1 : Nat) < win0_1.index last (1 : Fin 2) * 1 + 1
                  rw [e1]; omega⟩

/-- The padded matrix is only read by the region: it ends as the region found it. -/
theorem final_in (c : Dev nD) : (dat0 V c).arrAt 0 cfg0.N = V c main_v22 :=
  ((dat0 V c).arrAt_in 0 rfl _).trans (A_eq0 V c 0)

end Region

/-! ## At the ideal values -/

/-- The body's stored column at (r, u): the previous column there plus the sum of row `r` of the tile. -/
theorem pay2_apply (xo : Vec Ideal S512x1 .f32) (x : Vec Ideal S512x2048 .f32) (r : Fin 512) (u : Fin 1) :
    k0_pay2 (F := Ideal) xo x (ix2 r u) = xo (ix2 r u) + ∑ j : Fin 2048, x (ix2 r j) := by
  unfold k0_pay2
  show (shapeCast S512x1 xo shapeCasts_S512x1_S512x1) (ix2 r u)
      + (shapeCast S512x1 (multiReduction (F := Ideal) .add [1] S512 (shapeCast S512x2048 x shapeCasts_S512x2048_S512x2048) 0x00000000#32
          reduces_S512x2048_S512 (.inl rfl) rfl) shapeCasts_S512_S512x1) (ix2 r u) = _
  rw [shapeCast_self, shapeCast_self, shapeCast_a_a1_apply]
  refine congrArg (xo (ix2 r u) + ·) ?_
  refine (Ideal.multiReduction_add_single x 0x00000000#32 reduces_S512x2048_S512 (.inl rfl) rfl (ix1 r)).trans ?_
  exact Finset.sum_congr rfl fun j _ => congrArg x (funext fun a => Fin.ext (by match a with | ⟨0, _⟩ => rfl | ⟨1, _⟩ => rfl))

variable (V : (c : Dev nD) → (b : Ref sig .tc) → Buf (Elt Ideal) ((c : Thread nD τ).loc b))

/-- Row `r` of the padded matrix as the region finds it, as a sequence (zero past its 51200 entries). -/
def rowSeq (c : Dev nD) (r : Fin 512) (k : ℕ) : EReal :=
  if h : k < 51200 then (V c main_v22 : S512x51200.Idx → Ideal .f32) (ix2 r ⟨k, h⟩) else 0

/-- The column after point `n`, at row `r`: the running sum of the row's tile sums. -/
theorem acc_apply (c : Dev nD) (r : Fin 512) (u : Fin 1) : ∀ (n : ℕ) (h : n < cfg0.N),
    acc V c n h (ix2 r u) = Cert.Bm25.runSum (fun t => ∑ j : Fin 2048, rowSeq V c r (t * 2048 + j.val)) n
  | 0, h => by
    unfold acc Cert.Bm25.runSum
    rw [pay2_apply]
    refine congrArg₂ (· + ·) (Ideal.ofBits_zero_f32) (Finset.sum_congr rfl fun j _ => ?_)
    rw [tile_apply V c ⟨0, h⟩ r j]
    unfold rowSeq
    rw [dif_pos]
  | n + 1, h => by
    unfold acc Cert.Bm25.runSum
    rw [pay2_apply, acc_apply c r u n]
    refine congrArg (_ + ·) (Finset.sum_congr rfl fun j _ => ?_)
    rw [tile_apply V c ⟨n + 1, h⟩ r j]
    unfold rowSeq
    rw [dif_pos]

end Cert.KernelIdeal.RowSums

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Normalize.lean ====
/-
  The normalising region: what it leaves in the padded result.

  The region walks the same 25 column tiles. At tile `t` it reads the tile of the padded count matrix and the whole
  column of additive terms, and writes the tile of the result: entry (r, k) becomes
  `(count · 2.6) / (count + term r)`. Every point writes its tile back, the 25 tiles fill the [512, 51200] array, and
  the function does not depend on the tile; so the array ends at that one function of the two input arrays, entry by
  entry.
-/
import proofs.«109976_j1185410973873_1_alg».proof.Proof.Gen.KernelIdeal.Frame
import proofs.«109976_j1185410973873_1_alg».proof.Proof.LibColumnBroadcast
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Normalize

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- The result as one function of the padded count matrix `A` and the column of additive terms `B`: at (r, k),
    `(A (r, k) · 2.6) / (A (r, k) + B (r, 0))`. -/
abbrev scaled (A : S512x51200.Idx → Elt F .f32) (B : S512x1.Idx → Elt F .f32) : S512x51200.Idx → Elt F .f32 := fun i =>
  FloatOps.divf (FloatOps.mulf (A i) (Scalar.ofBits .f32 0x40266666#32))
    (FloatOps.addf (A i) (B (ix2 (⟨(i 0).val, (i 0).isLt⟩ : Fin 512) (0 : Fin 1))))

/-- The body's stored tile at an entry: the same expression of the loaded tile and the loaded column. -/
theorem pay_apply (x0 : Vec F S512x2048 .f32) (x1 : Vec F S512x1 .f32) (j : S512x2048.Idx) :
    k1_pay1 x0 x1 j = FloatOps.divf (FloatOps.mulf (x0 j) (Scalar.ofBits .f32 0x40266666#32))
      (FloatOps.addf (x0 j) (x1 (ix2 (⟨(j 0).val, (j 0).isLt⟩ : Fin 512) (0 : Fin 1)))) := by
  obtain ⟨r, q, rfl⟩ : ∃ (r : Fin 512) (q : Fin 2048), j = ix2 r q := ⟨j 0, j 1, eq_ix2 j⟩
  unfold k1_pay1
  show FloatOps.divf (FloatOps.mulf (shapeCast S512x2048 x0 shapeCasts_S512x2048_S512x2048 (ix2 r q)) _)
      (FloatOps.addf (shapeCast S512x2048 x0 shapeCasts_S512x2048_S512x2048 (ix2 r q))
        (broadcastTo S512x2048 (shapeCast S512x1 x1 shapeCasts_S512x1_S512x1) broadcasts_S512x1_S512x2048 (ix2 r q))) = _
  rw [shapeCast_self, shapeCast_self, broadcastTo_a1_ab_apply]
  rfl

section Region
variable (V : (c : Dev nD) → (b : Ref sig .tc) → Buf (Elt F) ((c : Thread nD τ).loc b))

/-- The windows' block indices, decided over the grid: tile `t` of the input and of the output is column block `t`; the
    column of terms is always block (0, 0). -/
theorem idx_facts : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = t.val :=
  (by decide +kernel : ∀ t : Fin grid1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = t.val)

theorem lt25 (t : Fin cfg1.N) : t.val < 25 := lt_of_lt_of_eq t.isLt N_1

/-- What point `t` writes back is tile `t` of `scaled` of the two arrays as the region finds them. -/
theorem flushed_eq (c : Dev nD) (t : Fin cfg1.N) :
    (dat1 V c).flushed 2 t = ((cfg1.win 2).blk t).view.read (Elt F) (scaled (V c main_v22) (V c main_v33)) := by
  show (cfg1.win 2).cut (grid1.coords t) ((dat1 V c).after 2 t) = _
  rw [after1_2]
  unfold out1_2
  rw [View.canon_unit_zero hz]
  simp only [View.ld_unit_zero (S := S512x2048) hz, View.ld_unit_zero (S := S512x1) hz]
  obtain ⟨e0, e1, e2, e3, e4, e5⟩ := idx_facts t
  funext j
  refine (pay_apply _ _ j).trans ?_
  have hA : (iblk1 V c 0 t : Vec F S512x2048 .f32) j = V c main_v22 (((cfg1.win 2).blk t).view.emb j) := by
    unfold iblk1
    rw [View.read_apply]
    show V c main_v22 _ = V c main_v22 _
    congr 1
  have hB : (iblk1 V c 1 t : Vec F S512x1 .f32) (ix2 (⟨(j 0).val, (j 0).isLt⟩ : Fin 512) (0 : Fin 1))
      = V c main_v33 (ix2 (⟨((((cfg1.win 2).blk t).view.emb j) 0).val, ((((cfg1.win 2).blk t).view.emb j) 0).isLt⟩ : Fin 512) (0 : Fin 1)) := by
    unfold iblk1
    rw [View.read_apply]
    show V c main_v33 _ = V c main_v33 _
    congr 1
    funext a
    apply Fin.ext
    match a with
    | ⟨0, _⟩ => show win1_1.index t (0 : Fin 2) * 512 + 1 * (j 0).val = win1_2.index t (0 : Fin 2) * 512 + 1 * (j 0).val; rw [e2, e4]
    | ⟨1, _⟩ => show win1_1.index t (1 : Fin 2) * 1 + 1 * 0 = 0; rw [e3]
  show FloatOps.divf (FloatOps.mulf ((iblk1 V c 0 t : Vec F S512x2048 .f32) j) _)
      (FloatOps.addf ((iblk1 V c 0 t : Vec F S512x2048 .f32) j) ((iblk1 V c 1 t : Vec F S512x1 .f32) (ix2 (⟨(j 0).val, (j 0).isLt⟩ : Fin 512) (0 : Fin 1))))
    = scaled (V c main_v22) (V c main_v33) (((cfg1.win 2).blk t).view.emb j)
  rw [hA, hB]

/-- An index of the array is in point `t`'s block iff each coordinate is in the block's range on its axis. -/
theorem mem_blk (t : Fin cfg1.N) (i : S512x51200.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v34).slice (win1_2.rect t)).set ↔ _
  rw [View.set_slice_whole, Rect.mem_set_unit]
  exact Iff.rfl

/-- The padded result ends at `scaled` of the two arrays: column `k` lies in tile `k / 2048`. -/
theorem final_out (c : Dev nD) : (dat1 V c).arrAt 2 cfg1.N = scaled (V c main_v22) (V c main_v33) :=
  (dat1 V c).arrAt_eq_of_cover 2 (scaled (V c main_v22) (V c main_v33)) (fun t _ => flushed_eq V c t) fun i => by
    have h0 : (i 0 : Nat) < 512 := (i 0).isLt
    have h1 : (i 1 : Nat) < 51200 := (i 1).isLt
    refine ⟨⟨(i 1).val / 2048, by rw [show cfg1.N = 25 from N_1]; omega⟩, flush1_2 _, ?_⟩
    rw [mem_blk]
    obtain ⟨e0, e1, e2, e3, e4, e5⟩ := idx_facts ⟨(i 1).val / 2048, by rw [show cfg1.N = 25 from N_1]; omega⟩
    intro a
    match a with
    | ⟨0, _⟩ => show win1_2.index _ (0 : Fin 2) * 512 ≤ (i 0 : Nat) ∧ (i 0 : Nat) < win1_2.index _ (0 : Fin 2) * 512 + 512
                rw [e4]; omega
    | ⟨1, _⟩ => show win1_2.index _ (1 : Fin 2) * 2048 ≤ (i 1 : Nat) ∧ (i 1 : Nat) < win1_2.index _ (1 : Fin 2) * 2048 + 2048
                rw [e5]; dsimp only; omega

end Region

end Cert.KernelIdeal.Normalize

end
-- ==== Proof.HostStretch.lean ====
/-
  The host operations around the two regions, read at the segment boundaries.

  Before the row-sum region the count matrix is padded on the right with 935 columns holding the float of the integer
  0. Between the regions the column of row sums `L` becomes the column of additive terms
  `1.6 · (0.25 + 0.75 · (L / (sum L / 512)))`, and the padded matrix is untouched. After the normalising region the
  result is the left [512, 50265] part of its padded output.
-/
import proofs.«109976_j1185410973873_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStretch

open Cert.KernelIdeal Cert.KernelIdeal.Gen

variable {F : FTy → Type} [FloatOps F]

/-- The column of additive terms as the host computes it from the column of row sums `L`:
    `1.6 · (0.25 + 0.75 · (L / (sum L / 512)))`, every constant broadcast to the column. -/
def addTerm (L : (⟨S512x1, .f32⟩ : BufTy).Contents (Elt F)) : (⟨S512x1, .f32⟩ : BufTy).Contents (Elt F) :=
  mulf (broadcastInDim S512x1 ![] bcast_S_S512x1 (constant (F := F) S_ .f32 0x3FCCCCCD#32))
    (addf (broadcastInDim S512x1 ![] bcast_S_S512x1 (constant (F := F) S_ .f32 0x3E800000#32))
      (mulf (broadcastInDim S512x1 ![] bcast_S_S512x1 (constant (F := F) S_ .f32 0x3F400000#32))
        (Host.divf L (broadcastInDim S512x1 ![] bcast_S_S512x1
          (Host.divf (Host.reduceAdd L (constant (F := F) S_ .f32 0x00000000#32) reducesTo_S512x1_S_d0_1 h_S_)
            (constant (F := F) S_ .f32 0x44000000#32))))))

variable (m : (ℓ : Loc nD τ sig) → Buf (Elt F) ℓ) (ρ : Dev nD → PrngReg)

/-- At the normalising region's entry the column of additive terms is `addTerm` of the column the row-sum region left. -/
theorem entry1_terms (c : Dev nD) : V4 m ρ c main_v33 = addTerm (W3 m ρ c (Proc.devRef .tc main_v23)) := by
  show StableHlo.after hostOps1 (W3 m ρ c) (Proc.devRef .tc main_v33) = _
  after_results
  rfl

/-- At the normalising region's entry the padded count matrix is as the row-sum region left it. -/
theorem entry1_counts (c : Dev nD) : V4 m ρ c main_v22 = W3 m ρ c (Proc.devRef .tc main_v22) := by
  show StableHlo.after hostOps1 (W3 m ρ c) (Proc.devRef .tc main_v22) = _
  after_results

/-- The result is the left part of the normalising region's padded output. -/
theorem result_slice (c : Dev nD) : W6 m ρ c (Proc.devRef .tc main_v35)
    = extractStridedSlice S512x50265 ![0, 0] (W5 m ρ c (Proc.devRef .tc main_v34)) slices_S512x51200_S512x50265_0_0 := by
  show StableHlo.after hostOps2 (W5 m ρ c) (Proc.devRef .tc main_v35) = _
  after_results

/-- At the row-sum region's entry the padded matrix is the count matrix padded with the float of the integer the first
    stretch of host operations leaves in the pad value's buffer. -/
theorem entry0_padded (c : Dev nD) : V2 m ρ c main_v22
    = pad S512x51200 ![0, 0] ![0, 935] ![0, 0] (W1 m ρ c (Proc.devRef .tc main_v21))
        (sitofp .f32 (W1 m ρ c (Proc.devRef .tc main_c_6))) pads_S512x50265_S512x51200_000_09350 h_S_ := by
  show StableHlo.after hostOps0_1 (W1 m ρ c) (Proc.devRef .tc main_v22) = _
  generalize W1 m ρ c = w
  after_results
  rfl

end Cert.KernelIdeal.HostStretch

end
-- ==== Proof.Counts.lean ====
/-
  The count matrix is built the same way by both programs.

  Both programs begin with the same operations on the token ids: a scatter-add of ones into a zero [512, 50265] matrix
  at (row, token id), then a scatter that sets column 1 to zero. The kernel's program reaches the count matrix after its
  first stretch of host operations; the reference names the same composed term `val_main_v21` of the token ids. The two
  terms are one term, operation for operation.
-/
import proofs.«109976_j1185410973873_1_alg».proof.Proof.Gen.KernelIdeal.Frame
import proofs.«109976_j1185410973873_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Counts

open Cert.KernelIdeal Cert.KernelIdeal.Gen

variable {F : FTy → Type} [FloatOps F]
variable (m : (ℓ : Loc nD τ sig) → Buf (Elt F) ℓ) (ρ : Dev nD → PrngReg)

set_option maxHeartbeats 2000000 in
/-- After the first stretch of host operations the count matrix is the reference's count matrix of the same token ids. -/
theorem counts_eq (c : Dev nD) : W1 m ρ c (Proc.devRef .tc main_v21)
    = Cert.ReferenceIdeal.Read.val_main_v21 (F := F) (m ((c : Thread nD τ).loc main_arg0)) := by
  show StableHlo.after hostOps0 (W0 m ρ c) (Proc.devRef .tc main_v21) = _
  after_results
  rfl

set_option maxHeartbeats 2000000 in
/-- The pad value's buffer holds the integer 0. -/
theorem pad_value (c : Dev nD) : W1 m ρ c (Proc.devRef .tc main_c_6) = constantI S_ 32 0#32 := by
  show StableHlo.after hostOps0 (W0 m ρ c) (Proc.devRef .tc main_c_6) = _
  after_results

end Cert.KernelIdeal.Counts

end
-- ==== Proof.LibIndexSums.lean ====
/-
  A sum over a rank-1 index set.

  A rank-1 index is its one coordinate, so a sum over the index set of an [n] array is the sum over `Fin n` of the
  summand at the index built from the coordinate. (The rank-2 companion is the library's `sum_idx2`.)
-/
import Idealize.ShloMosaic.Lib.ValueIdx

namespace Idealize.ShloMosaic.ValueIdx

open Idealize.ShloMosaic

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ValueIdx
-- ==== Proof.RefValue.lean ====
/-
  The reference's result, entry by entry.

  The reference sums each row of the count matrix, sums the row sums, divides by 512, and forms
  `(count · 2.6) / (count + 1.6 · (0.25 + 0.75 · (row sum / mean)))`. Its two host sums start from the constant 0, which
  adds nothing on the extended reals. Read one operation at a time, its result at (r, k) is `bm25` of its count
  matrix.
-/
import proofs.«109976_j1185410973873_1_alg».proof.Proof.Gen.ReferenceIdeal.Read
import proofs.«109976_j1185410973873_1_alg».proof.Proof.Spec
import proofs.«109976_j1185410973873_1_alg».proof.Proof.LibIndexSums

set_option maxRecDepth 16384

noncomputable section

open Idealize.ShloMosaic Idealize.ShloMosaic.TcCoe Idealize.SL.Sem

namespace Cert.ReferenceIdeal.RefValue

open Cert.ReferenceIdeal Cert.ReferenceIdeal.Read Idealize.ShloMosaic.ValueIdx Cert.Bm25

variable (x0 : (⟨S512x512, .i32⟩ : BufTy).Contents (Elt Ideal))

/-- The reference's count matrix of the token ids `x0`, by coordinates. -/
abbrev cnt (r : Fin 512) (k : Fin 50265) : EReal := val_main_v21 (F := Ideal) x0 (ix2 r k)

/-- A row sum: the host's `0 + ∑` over the row. -/
theorem len_apply (r : Fin 512) : val_main_v22 (F := Ideal) x0 (ix1 r) = ∑ k, cnt x0 r k := by
  rw [val_main_v22_apply, val_main_cst_6_apply, Ideal.ofBits_def, Ideal.ofBits_zero_f32, zero_add]
  exact Finset.sum_congr rfl fun k _ => congrArg (val_main_v21 (F := Ideal) x0)
    (funext fun a => Fin.ext (by match a with | ⟨0, _⟩ => rfl | ⟨1, _⟩ => rfl))

/-- The sum of the row sums. -/
theorem total_apply (i : S_.Idx) : val_main_v23 (F := Ideal) x0 i = ∑ r, ∑ k, cnt x0 r k := by
  rw [val_main_v23_apply, val_main_cst_7_apply, Ideal.ofBits_def, Ideal.ofBits_zero_f32, zero_add, sum_idx1]
  exact Finset.sum_congr rfl fun r _ => len_apply x0 r

/-- The additive term of row `r`. -/
theorem term_apply (r : Fin 512) : val_main_v32 (F := Ideal) x0 (ix1 r)
    = c16 * (c025 + c075 * Ideal.div (∑ k, cnt x0 r k) (Ideal.div (∑ r', ∑ k, cnt x0 r' k) c512)) := by
  rw [val_main_v32_apply, val_main_v31_apply, val_main_cst_11_apply, val_main_v30_apply, val_main_v29_apply,
    val_main_cst_10_apply, val_main_v28_apply, val_main_v27_apply, val_main_cst_9_apply, val_main_v26_apply,
    val_main_v25_apply, val_main_v24_apply, val_main_cst_8_apply, len_apply, total_apply]
  rfl

/-- The reference's result at (r, k) is the BM25 weight of its count matrix there. -/
theorem result_apply (r : Fin 512) (k : Fin 50265) :
    val_main_v38 (F := Ideal) x0 (ix2 r k) = bm25 (cnt x0) r k := by
  rw [val_main_v38_apply, val_main_v37_apply, val_main_v36_apply, val_main_cst_12_apply, val_main_v35_apply,
    val_main_v34_apply, val_main_v33_apply]
  have e : idx_main_v33 (idx_main_v34 (ix2 r k)) = ix1 r :=
    funext fun a => Fin.ext (by match a with | ⟨0, _⟩ => rfl)
  rw [e, term_apply]
  rfl

end Cert.ReferenceIdeal.RefValue

end
-- ==== Proof.KernelValue.lean ====
/-
  The kernel's result, entry by entry, and its equality with the reference's.

  Reading the segment boundaries from the end: the result is the left part of the normalising region's output; that
  output is `(A · 2.6) / (A + B)` of the padded count matrix `A` and the column of additive terms `B`; `B` is the host's
  `1.6 · (0.25 + 0.75 · (L / (sum L / 512)))` of the column `L` the row-sum region left; `L` at row `r` is the running sum
  of the 25 tile sums of row `r` of `A`; and `A` is the count matrix with 935 zero columns appended. The zero columns
  add nothing to a row sum, and the order of summation does not matter on the extended reals, so `L r` is the sum of row
  `r` of the count matrix and the result at (r, k) is `bm25` of the count matrix — the reference's value there.
-/
import proofs.«109976_j1185410973873_1_alg».proof.Proof.Gen.KernelIdeal.Frame
import proofs.«109976_j1185410973873_1_alg».proof.Proof.Gen.ReferenceIdeal.Read
import proofs.«109976_j1185410973873_1_alg».proof.Proof.Spec
import proofs.«109976_j1185410973873_1_alg».proof.Proof.RowSums
import proofs.«109976_j1185410973873_1_alg».proof.Proof.Normalize
import proofs.«109976_j1185410973873_1_alg».proof.Proof.HostStretch
import proofs.«109976_j1185410973873_1_alg».proof.Proof.Counts
import proofs.«109976_j1185410973873_1_alg».proof.Proof.RefValue
import Idealize.ShloMosaic.Lib.KernelVsHost
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.KernelIdeal.KernelValue

open Cert.KernelIdeal Cert.KernelIdeal.Gen Idealize.ShloMosaic.ValueIdx Cert.Bm25

variable (m : (ℓ : Loc nD τ sig) → Buf (Elt Ideal) ℓ) (ρ : Dev nD → PrngReg)

/-- The count matrix of the kernel's token ids, by coordinates (the reference's composed term of them). -/
abbrev cnt (c : Dev nD) (r : Fin 512) (k : Fin 50265) : EReal :=
  Cert.ReferenceIdeal.Read.val_main_v21 (F := Ideal) (m ((c : Thread nD τ).loc main_arg0)) (ix2 r k)

/-- The padded count matrix as the row-sum region finds it, the column of row sums that region leaves, and the
    program's result, each as an array of extended reals. -/
abbrev padded (c : Dev nD) : S512x51200.Idx → EReal := V2 m ρ c main_v22
abbrev rowCol (c : Dev nD) : S512x1.Idx → EReal := W3 m ρ c (Proc.devRef .tc main_v23)
abbrev result (c : Dev nD) : S512x50265.Idx → EReal := W6 m ρ c (Proc.devRef .tc main_v35)

/-- Inside the first 50265 columns the padded matrix is the count matrix. -/
theorem padded_in (c : Dev nD) (r : Fin 512) (k : Fin 50265) :
    padded m ρ c (ix2 r ⟨k.val, by have := k.isLt; omega⟩) = cnt m c r k := by
  show (V2 m ρ c main_v22) _ = _
  rw [HostStretch.entry0_padded, Counts.counts_eq]
  exact pad_apply_of_inside (s := S512x50265) (t := S512x51200) ![0, 0] ![0, 935] ![0, 0] _ _
    pads_S512x50265_S512x51200_000_09350 h_S_ (ix2 r ⟨k.val, by have := k.isLt; omega⟩) (ix2 r k)
    (fun a => by
      match a with
      | ⟨0, _⟩ => show r.val = 0 + r.val * (0 + 1); omega
      | ⟨1, _⟩ => show k.val = 0 + k.val * (0 + 1); omega)

/-- Past them it is the pad value: the float of the integer 0, the extended real 0. -/
theorem padded_out (c : Dev nD) (r : Fin 512) (k : ℕ) (h1 : 50265 ≤ k) (h2 : k < 51200) :
    padded m ρ c (ix2 r ⟨k, h2⟩) = 0 := by
  show (V2 m ρ c main_v22) _ = _
  rw [HostStretch.entry0_padded, Counts.pad_value]
  refine (pad_apply_of_not_inside (s := S512x50265) (t := S512x51200) ![0, 0] ![0, 935] ![0, 0] _ _
    pads_S512x50265_S512x51200_000_09350 h_S_ (ix2 r ⟨k, h2⟩) (1 : Fin 2) (fun h => ?_)).trans ?_
  · have h3 : (k - 0) / (0 + 1) < 50265 := h.2.2
    simp only [Nat.sub_zero, Nat.zero_add, Nat.div_one] at h3
    omega
  · show (((0#32 : BitVec 32).toInt : ℝ) : EReal) = 0
    simp

/-- Row `r` of the padded matrix as a sequence: the row's counts, then zeros. -/
theorem rowSeq_eq (c : Dev nD) (r : Fin 512) (k : ℕ) :
    RowSums.rowSeq (V2 m ρ) c r k = if h : k < 50265 then cnt m c r ⟨k, h⟩ else 0 := by
  unfold RowSums.rowSeq
  by_cases h1 : k < 50265
  · rw [dif_pos (show k < 51200 by omega), dif_pos h1]
    exact padded_in m ρ c r ⟨k, h1⟩
  · rw [dif_neg h1]
    by_cases h2 : k < 51200
    · rw [dif_pos h2]
      exact padded_out m ρ c r k (by omega) h2
    · rw [dif_neg h2]

/-- The column the row-sum region leaves holds, at row `r`, the sum of the row's counts. -/
theorem col_apply (c : Dev nD) (r : Fin 512) (u : Fin 1) : rowCol m ρ c (ix2 r u) = ∑ k, cnt m c r k := by
  have e : rowCol m ρ c = RowSums.acc (V2 m ρ) c 24 RowSums.lt24 :=
    (W3_arr m ρ c 1).trans (RowSums.final_col (V2 m ρ) c)
  refine (congrFun e (ix2 r u)).trans ((RowSums.acc_apply (V2 m ρ) c r u 24 RowSums.lt24).trans ?_)
  refine (runSum_tiles (RowSums.rowSeq (V2 m ρ) c r) (fun k hk => by rw [rowSeq_eq, dif_neg (by omega)])).trans ?_
  exact Finset.sum_congr rfl fun k _ => by rw [rowSeq_eq, dif_pos k.isLt]

/-- Its total is the sum of all the counts. -/
theorem col_total (c : Dev nD) : ∑ i : S512x1.Idx, rowCol m ρ c i = ∑ r, ∑ k, cnt m c r k := by
  rw [sum_idx2]
  exact Finset.sum_congr rfl fun r _ => (Fintype.sum_unique _).trans (col_apply m ρ c r default)

/-- The host's additive term at row `r`, from a column `L` of row sums. -/
theorem addTerm_apply (L : S512x1.Idx → EReal) (r : Fin 512) (u : Fin 1) :
    (HostStretch.addTerm (F := Ideal) L : S512x1.Idx → EReal) (ix2 r u)
      = c16 * (c025 + c075 * Ideal.div (L (ix2 r u)) (Ideal.div (∑ i, L i) c512)) := by
  unfold HostStretch.addTerm
  simp only [mulf, addf, Host.divf, Host.reduceAdd, broadcastInDim, constant, Ideal.mulf_def, Ideal.addf_def,
    Ideal.hostDivf_def, Ideal.hostReduceAdd_def, Ideal.ofBits_def]
  rw [Ideal.hostReduceAdd_total reducesTo_S512x1_S_d0_1 (fun b => b.elim0), Ideal.ofBits_zero_f32, zero_add]

/-- The kernel's result at (r, k) is the BM25 weight of the count matrix there. -/
theorem result_apply (c : Dev nD) (r : Fin 512) (k : Fin 50265) : result m ρ c (ix2 r k) = bm25 (cnt m c) r k := by
  show (W6 m ρ c (Proc.devRef .tc main_v35)) _ = _
  rw [HostStretch.result_slice]
  refine (extractStridedSlice_apply (s := S512x51200) (t := S512x50265) ![0, 0] _ slices_S512x51200_S512x50265_0_0 (ix2 r k)
    (ix2 r ⟨k.val, by have := k.isLt; omega⟩) (fun a => by
      match a with
      | ⟨0, _⟩ => show r.val = 0 + r.val; omega
      | ⟨1, _⟩ => show k.val = 0 + k.val; omega)).trans ?_
  have eA : V4 m ρ c main_v22 = V2 m ρ c main_v22 :=
    (HostStretch.entry1_counts m ρ c).trans ((W3_arr m ρ c 0).trans (RowSums.final_in (V2 m ρ) c))
  have e : W5 m ρ c (Proc.devRef .tc main_v34)
      = Normalize.scaled (F := Ideal) (padded m ρ c) (HostStretch.addTerm (F := Ideal) (rowCol m ρ c)) :=
    (W5_arr m ρ c 2).trans ((Normalize.final_out (V4 m ρ) c).trans (by rw [eA, HostStretch.entry1_terms]))
  rw [e]
  show Ideal.div (padded m ρ c (ix2 r ⟨k.val, by have := k.isLt; omega⟩) * c26)
      (padded m ρ c (ix2 r ⟨k.val, by have := k.isLt; omega⟩)
        + (HostStretch.addTerm (F := Ideal) (rowCol m ρ c) : S512x1.Idx → EReal) (ix2 r (0 : Fin 1))) = _
  rw [padded_in, addTerm_apply, col_apply, col_total]
  rfl

/-- So the kernel's result is the reference's result of the same token ids. -/
theorem value_eq (c : Dev nD) : W6 m ρ c (Proc.devRef .tc main_v35)
    = Cert.ReferenceIdeal.Read.val_main_v38 (F := Ideal) (m ((c : Thread nD τ).loc main_arg0)) := by
  funext i
  obtain ⟨r, k, rfl⟩ : ∃ (r : Fin 512) (k : Fin 50265), i = ix2 r k := ⟨i 0, i 1, eq_ix2 i⟩
  exact (result_apply m ρ c r k).trans (Cert.ReferenceIdeal.RefValue.result_apply _ r k).symm

end Cert.KernelIdeal.KernelValue

end
-- ==== Proof.lean ====
/-
  The proof of `Cert.Claim`: a BM25 term-weighting kernel against its jnp reference.

  Both programs build the same [512, 50265] matrix of token counts from the token ids (a scatter-add of ones, then
  column 1 set to zero). The reference sums each row, averages the row sums, and returns
  `(count · 2.6) / (count + 1.6 · (0.25 + 0.75 · (row sum / mean)))`. The kernel pads the matrix with 935 zero columns,
  sums the rows in a first region that accumulates 25 column tiles into one [512, 1] block, forms the additive term on
  the host, applies the same quotient tile by tile in a second region, and slices the padding off.

  The three frames: the two kernel programs' are the generated ones; the reference has no kernel, and its frame is its
  generated run with the result dropped. The ideal pass rewrote nothing, so `preserves` is `True`.

  `algebraic`: at the ideal values the kernel's result buffer ends at the last segment boundary's contents
  (KernelRun), which entry by entry is `bm25` of the count matrix (KernelValue: zero padding adds nothing to a row sum
  and a sum of extended reals may be taken tile by tile); the reference's result is the same `bm25` of the same count
  matrix (RefValue). No law used needs a finite input: the precondition is never opened.
-/
import proofs.«109976_j1185410973873_1_alg».proof.Defs
import proofs.«109976_j1185410973873_1_alg».proof.Proof.Gen.Kernel
import proofs.«109976_j1185410973873_1_alg».proof.Proof.Gen.Kernel.Skeleton
import proofs.«109976_j1185410973873_1_alg».proof.Proof.Gen.Kernel.Launch
import proofs.«109976_j1185410973873_1_alg».proof.Proof.Gen.Kernel.Points
import proofs.«109976_j1185410973873_1_alg».proof.Proof.Gen.Kernel.Frame
import proofs.«109976_j1185410973873_1_alg».proof.Proof.Gen.KernelIdeal
import proofs.«109976_j1185410973873_1_alg».proof.Proof.Gen.KernelIdeal.Skeleton
import proofs.«109976_j1185410973873_1_alg».proof.Proof.Gen.KernelIdeal.Launch
import proofs.«109976_j1185410973873_1_alg».proof.Proof.Gen.KernelIdeal.Points
import proofs.«109976_j1185410973873_1_alg».proof.Proof.Gen.KernelIdeal.Frame
import proofs.«109976_j1185410973873_1_alg».proof.Proof.Gen.ReferenceIdeal
import proofs.«109976_j1185410973873_1_alg».proof.Proof.Gen.Pre_finite_inputs
import proofs.«109976_j1185410973873_1_alg».proof.Proof.Gen.ReferenceIdeal.Read
import proofs.«109976_j1185410973873_1_alg».proof.Proof.KernelRun
import proofs.«109976_j1185410973873_1_alg».proof.Proof.KernelValue
import Idealize.ShloMosaic.Adequacy
import Idealize.ShloMosaic.Init

noncomputable section

namespace Cert.Proof

open Idealize.ShloMosaic Idealize.SL.Sem Cert.Kernel

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- At the ideal values both programs end with the reference's value of the token ids: the kernel's by its run and the
    entry-by-entry equality, the reference's by its run, the two argument arrays agreeing. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v38 (F := Ideal)
      (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.KernelValue.value_eq m ρ c), (h c).2⟩)
      (Cert.KernelIdeal.RunValue.run (F := Ideal) m ρ)
  · exact (θ_run Cert.ReferenceIdeal.defs _ _).mono
      (fun _ h c => ⟨by rw [(h c).1, Cert.ReferenceIdeal.Read.val_main_v38_eq, (hagree c).1], (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
